-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .bf16⟩
  | .hbm, ⟨38, _⟩ => ⟨S128x128, .bf16⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .bf16⟩
  | .hbm, ⟨67, _⟩ => ⟨S128x128, .bf16⟩
  | .hbm, ⟨68, _⟩ => ⟨S1x128, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_v65 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRun.lean ====
/-
  The idealized kernel's run with its result named.

  @main is four segments: host operations, the first pallas_call, host operations, the second pallas_call. The
  buffer contents at each boundary are a fold through them (the generated frame module's W0 ... W4), and after the last
  segment every unscoped buffer of a core holds what the fold says. The generated frame theorem reads that off at the
  eight argument arrays; here it is read off at the result array as well: after the run the result holds what the
  second call's write-backs leave of its output window, `(dat1 (V3 m ρ) c).arrAt 5 cfg1.N`, and the arguments are
  as launched. The launch itself (the segments, the ghost state, the initial and final thread states) is the generated
  frame's, unchanged.
-/
import proofs.«123608_j16982300688537_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at what the second call
    leaves of its output window and the argument arrays as launched. -/
theorem run_named : θ_run defs (onTc (τ := τ) (main (F := F))) ⟨m, fun _ => 0, ρ⟩ (fun r => ∀ c : Dev nD,
      r.2.mem ((c.tc : Thread nD τ).loc main_v49) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v49 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.SageRow.lean ====
/-
  One row of a GraphSAGE layer, as a function of the row's own data.

  A layer sends a node's aggregated neighbour features a (128 numbers), its own features x (128 numbers), two
  128 x 128 weight matrices Wl, Wr and a bias b to

      lin q  = ((sum_k a k * Wl (k, q)) + b q) + sum_k x k * Wr (k, q)            (the linear part, 128 numbers)
      out q  = max (lin q / max (sqrt (sum_j lin j * lin j)) eps) 0                (L2-normalised, then rectified)

  with eps the number the f32 word 0x2B8CBCCC denotes. All arithmetic is that of the extended reals, in exactly this
  order of operations; no law of arithmetic is used anywhere below, only that two spellings of these operations read
  the same numbers.

  The second half reads a TILE of the layer - A rows computed at once by two matrix products into zero accumulators,
  a row broadcast of the bias, a sum over the lanes, a column broadcast of the norm - at an entry (p, q): it is the
  row function above of row p of the two left operands.
-/
import Idealize.ShloMosaic.Lib.ValueIdx
import Idealize.ShloMosaic.Lib.ValueLayout
import Idealize.ShloMosaic.Lib.Pipeline.Value
import Idealize.ShloMosaic.PureOps.Ideal.Laws
import proofs.«123608_j16982300688537_1_alg».proof.Proof.LibIx2

noncomputable section

open scoped BigOperators

namespace Cert.Sage

open Idealize.ShloMosaic Idealize.ShloMosaic.ValueIdx

/-- The shape of a weight matrix. -/
abbrev SW : Shape := ⟨2, ![128, 128]⟩

/-- The linear part of a row: aggregated features through the left weights, plus the bias, plus the node's own
    features through the right weights. -/
def rowLin (a x : Fin 128 → EReal) (wl : SW.Idx → EReal) (b : Fin 128 → EReal) (wr : SW.Idx → EReal) (q : Fin 128) : EReal :=
  ((∑ k : Fin 128, a k * wl (ix2 k q)) + b q) + ∑ k : Fin 128, x k * wr (ix2 k q)

/-- The row's output: the linear part divided by its Euclidean norm (kept away from zero by eps), then rectified. -/
def rowOut (a x : Fin 128 → EReal) (wl : SW.Idx → EReal) (b : Fin 128 → EReal) (wr : SW.Idx → EReal) (q : Fin 128) : EReal :=
  max (Ideal.div (rowLin a x wl b wr q)
        (max (Ideal.sqrt (∑ j : Fin 128, rowLin a x wl b wr j * rowLin a x wl b wr j)) (Ideal.ofBits .f32 0x2B8CBCCC#32)))
      (Ideal.ofBits .f32 0x00000000#32)

/-- The row function of equal data is equal. -/
theorem rowOut_congr {a a' x x' : Fin 128 → EReal} {wl wl' : SW.Idx → EReal} {b b' : Fin 128 → EReal} {wr wr' : SW.Idx → EReal}
    (ha : a = a') (hx : x = x') (hwl : wl = wl') (hb : b = b') (hwr : wr = wr') (q : Fin 128) :
    rowOut a x wl b wr q = rowOut a' x' wl' b' wr' q := by
  subst ha hx hwl hb hwr; rfl

section Tile
variable {A : ℕ} (d : DotDims ⟨2, ![A, 128]⟩ ⟨2, ![128, 128]⟩ ⟨2, ![A, 128]⟩)
  (hb : (⟨2, ![1, 128]⟩ : Shape).Broadcasts ⟨2, ![A, 128]⟩)
  (hred : (⟨2, ![A, 128]⟩ : Shape).Reduces [1] ⟨1, ![A]⟩)
  (hcol : (⟨1, ![A]⟩ : Shape).ShapeCasts ⟨2, ![A, 1]⟩)
  (hbc : (⟨2, ![A, 1]⟩ : Shape).Broadcasts ⟨2, ![A, 128]⟩)
  (hφ : FKind.Formats FTy.f32) (hacc : (0x00000000#32 : BitVec FTy.f32.bits) = FKind.add.neutral .f32 hφ)
  (hlt : FTy.bf16.bits < FTy.f32.bits)
  (a x : FVec Ideal ⟨2, ![A, 128]⟩ .f32) (wl wr : FVec Ideal ⟨2, ![128, 128]⟩ .bf16) (b : FVec Ideal ⟨2, ![1, 128]⟩ .f32)

/-- The linear part of a tile of A rows: two products into zero accumulators and the bias row repeated down the rows. -/
def tileLin : FVec Ideal ⟨2, ![A, 128]⟩ .f32 :=
  addf (addf (matmul d none (truncf .bf16 a hlt) wl (constant (F := Ideal) ⟨2, ![A, 128]⟩ .f32 0x00000000#32)) (broadcastTo ⟨2, ![A, 128]⟩ b hb))
    (matmul d none (truncf .bf16 x hlt) wr (constant (F := Ideal) ⟨2, ![A, 128]⟩ .f32 0x00000000#32))

/-- The tile: every row of the linear part divided by its norm (a lane sum of squares, kept as a column and repeated
    across the lanes), then rectified. -/
def tile : FVec Ideal ⟨2, ![A, 128]⟩ .f32 :=
  maximumf
    (divf (tileLin d hb hlt a x wl wr b)
      (broadcastTo ⟨2, ![A, 128]⟩
        (maximumf
          (sqrt (shapeCast ⟨2, ![A, 1]⟩
            (multiReduction (F := Ideal) .add [1] ⟨1, ![A]⟩ (mulf (tileLin d hb hlt a x wl wr b) (tileLin d hb hlt a x wl wr b)) 0x00000000#32 hred hφ hacc) hcol))
          (broadcast ⟨2, ![A, 1]⟩ (Scalar.ofBits (F := Ideal) .f32 0x2B8CBCCC#32))) hbc))
    (broadcast ⟨2, ![A, 128]⟩ (Scalar.ofBits (F := Ideal) .f32 0x00000000#32))

variable (hlc : d.lhsContracting = [1]) (hrc : d.rhsContracting = [0]) (hln : d.lhsNonContracting = [0])
  (hrn : d.rhsNonContracting = [1]) (hlb : d.lhsBatch = []) (hrb : d.rhsBatch = [])
  (hr : d.contr.rank = 1) (hs : d.contr.size ⟨0, by omega⟩ = 128)

include hlc hrc hln hrn hlb hrb hr hs in
/-- The tile's linear part at (p, q) is the row's linear part of row p of the two left operands. -/
theorem tileLin_apply (p : Fin A) (q : Fin 128) :
    tileLin d hb hlt a x wl wr b (ix2 p q)
      = rowLin (fun k => a (ix2 p k)) (fun k => x (ix2 p k)) wl (fun c => b (ix2 (0 : Fin 1) c)) wr q := by
  show (FloatOps.matmul d none (truncf .bf16 a hlt) wl (constant (F := Ideal) ⟨2, ![A, 128]⟩ .f32 0x00000000#32) (ix2 p q)
      + broadcastTo ⟨2, ![A, 128]⟩ b hb (ix2 p q))
      + FloatOps.matmul d none (truncf .bf16 x hlt) wr (constant (F := Ideal) ⟨2, ![A, 128]⟩ .f32 0x00000000#32) (ix2 p q) = _
  rw [Cert.LibIx2.matmul_zero_ix2_apply d hlc hrc hln hrn hlb hrb hr hs, Cert.LibIx2.matmul_zero_ix2_apply d hlc hrc hln hrn hlb hrb hr hs,
    broadcastTo_1b_ab_apply]
  rfl

include hlc hrc hln hrn hlb hrb hr hs in
/-- The tile at (p, q) is the row function of row p of the two left operands. -/
theorem tile_apply (p : Fin A) (q : Fin 128) :
    tile d hb hred hcol hbc hφ hacc hlt a x wl wr b (ix2 p q)
      = rowOut (fun k => a (ix2 p k)) (fun k => x (ix2 p k)) wl (fun c => b (ix2 (0 : Fin 1) c)) wr q := by
  have hlin := tileLin_apply d hb hlt a x wl wr b hlc hrc hln hrn hlb hrb hr hs p
  show max (Ideal.div (tileLin d hb hlt a x wl wr b (ix2 p q))
      (broadcastTo ⟨2, ![A, 128]⟩
        (maximumf
          (sqrt (shapeCast ⟨2, ![A, 1]⟩
            (multiReduction (F := Ideal) .add [1] ⟨1, ![A]⟩ (mulf (tileLin d hb hlt a x wl wr b) (tileLin d hb hlt a x wl wr b)) 0x00000000#32 hred hφ hacc) hcol))
          (broadcast ⟨2, ![A, 1]⟩ (Scalar.ofBits (F := Ideal) .f32 0x2B8CBCCC#32))) hbc (ix2 p q)))
      (Ideal.ofBits .f32 0x00000000#32) = _
  rw [Cert.LibIx2.broadcastTo_a1_ab_apply]
  show max (Ideal.div (tileLin d hb hlt a x wl wr b (ix2 p q))
      (max (Ideal.sqrt (shapeCast ⟨2, ![A, 1]⟩
            (multiReduction (F := Ideal) .add [1] ⟨1, ![A]⟩ (mulf (tileLin d hb hlt a x wl wr b) (tileLin d hb hlt a x wl wr b)) 0x00000000#32 hred hφ hacc) hcol (ix2 p (0 : Fin 1))))
        (Ideal.ofBits .f32 0x2B8CBCCC#32)))
      (Ideal.ofBits .f32 0x00000000#32) = _
  rw [Cert.LibIx2.shapeCast_a_a1_apply, Cert.LibIx2.multiReduction_add_lanes_apply]
  simp only [mulf_apply, hlin]
  rfl

end Tile

/-! ## A whole array of rows -/

/-- The layer on an array of A rows: entry (p, q) is the row function of row p of the aggregated features and row p of
    the input. -/
def layerOf {A : ℕ} (agg x : (⟨2, ![A, 128]⟩ : Shape).Idx → EReal) (wl : SW.Idx → EReal) (b : Fin 128 → EReal)
    (wr : SW.Idx → EReal) : (⟨2, ![A, 128]⟩ : Shape).Idx → EReal :=
  fun i => rowOut (fun k => agg (ix2 (⟨(i 0).val, idx2_lt0 i⟩ : Fin A) k)) (fun k => x (ix2 (⟨(i 0).val, idx2_lt0 i⟩ : Fin A) k)) wl b wr
    (⟨(i 1).val, idx2_lt1 i⟩ : Fin 128)

theorem layerOf_apply {A : ℕ} (agg x : (⟨2, ![A, 128]⟩ : Shape).Idx → EReal) (wl : SW.Idx → EReal) (b : Fin 128 → EReal)
    (wr : SW.Idx → EReal) (p : Fin A) (q : Fin 128) :
    layerOf agg x wl b wr (ix2 p q) = rowOut (fun k => agg (ix2 p k)) (fun k => x (ix2 p k)) wl b wr q := rfl

/-- The layer of equal data is equal. -/
theorem layerOf_congr {A : ℕ} {agg agg' x x' : (⟨2, ![A, 128]⟩ : Shape).Idx → EReal} {wl wl' : SW.Idx → EReal}
    {b b' : Fin 128 → EReal} {wr wr' : SW.Idx → EReal}
    (ha : agg = agg') (hx : x = x') (hwl : wl = wl') (hb : b = b') (hwr : wr = wr') :
    layerOf agg x wl b wr = layerOf agg' x' wl' b' wr' := by
  subst ha hx hwl hb hwr; rfl

end Cert.Sage

end
-- ==== Proof.SageRef.lean ====
/-
  The reference's layer, read at an entry.

  The reference computes a layer on the whole [100000, 128] array at once: two dot_generals, the bias broadcast in two
  steps, the row norm as the square root of a row sum of squares kept as a column, a quotient, and a maximum with zero.
  Read at the entry (p, q), that is the row function `Cert.Sage.rowOut` of row p of the aggregated features and of
  row p of the layer's input: each operation reads its operands at the coordinates the literal shapes dictate, and the
  row sum starts from the word 0, which denotes the number 0.

  The reference applies the same layer twice, the second time to the first one's output: the whole result is the layer
  function of (the layer function of the arguments).
-/
import proofs.«123608_j16982300688537_1_alg».proof.Proof.Gen.ReferenceIdeal.Read
import proofs.«123608_j16982300688537_1_alg».proof.Proof.SageRow

noncomputable section

open scoped BigOperators

namespace Cert.Sage.Ref

open Cert.ReferenceIdeal Cert.ReferenceIdeal.Read Idealize.ShloMosaic Idealize.ShloMosaic.ValueIdx Cert.Sage

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The layer's linear part (before normalisation) at (p, q) is the row's linear part: the aggregated features' row p
    through the left weights, the bias entry q, the input's row p through the right weights. -/
theorem lin_apply (p : Fin 100000) (q : Fin 128) :
    val_main_v28 (F := Ideal) x0 x1 x2 x3 x4 (ix2 p q)
      = rowLin (fun k => val_main_v22 (F := Ideal) x0 x1 (ix2 p k)) (fun k => x0 (ix2 p k)) x2 (fun c => x3 (ix1 c)) x4 q := by
  have el : ∀ k : Fin 128, lidx_main_v23 (ix2 p q) k = ix2 p k := fun k => funext fun a => by
    match a with | ⟨0, _⟩ => rfl | ⟨1, _⟩ => rfl
  have er : ∀ k : Fin 128, ridx_main_v23 (ix2 p q) k = ix2 k q := fun k => funext fun a => by
    match a with | ⟨0, _⟩ => rfl | ⟨1, _⟩ => rfl
  have el' : ∀ k : Fin 128, lidx_main_v27 (ix2 p q) k = ix2 p k := fun k => funext fun a => by
    match a with | ⟨0, _⟩ => rfl | ⟨1, _⟩ => rfl
  have er' : ∀ k : Fin 128, ridx_main_v27 (ix2 p q) k = ix2 k q := fun k => funext fun a => by
    match a with | ⟨0, _⟩ => rfl | ⟨1, _⟩ => rfl
  have eb : idx_main_v24 (idx_main_v25 (ix2 p q)) = ix1 q := funext fun a => by
    match a with | ⟨0, _⟩ => rfl
  rw [val_main_v28_apply, val_main_v26_apply, val_main_v23_apply, val_main_v27_apply, val_main_v25_apply, val_main_v24_apply]
  unfold rowLin
  generalize val_main_v22 (F := Ideal) x0 x1 = agg
  simp only [el, er, el', er', eb]
  rfl

/-- THE LAYER AT AN ENTRY: the reference's first layer at (p, q) is the row function of row p of the aggregated
    features and row p of the input. -/
theorem layer_apply (p : Fin 100000) (q : Fin 128) :
    val_main_v34 (F := Ideal) x0 x1 x2 x3 x4 (ix2 p q)
      = rowOut (fun k => val_main_v22 (F := Ideal) x0 x1 (ix2 p k)) (fun k => x0 (ix2 p k)) x2 (fun c => x3 (ix1 c)) x4 q := by
  have en : ∀ k : Fin 128, idx_main_call0_v1 (idx_main_call0_v2 (idx_main_v32 (ix2 p q))) k = ix2 p k := fun k => funext fun a => by
    match a with | ⟨0, _⟩ => rfl | ⟨1, _⟩ => rfl
  have hl : ∀ k : Fin 128, val_main_v28 (F := Ideal) x0 x1 x2 x3 x4 (ix2 p k)
      = rowLin (fun k => val_main_v22 (F := Ideal) x0 x1 (ix2 p k)) (fun k => x0 (ix2 p k)) x2 (fun c => x3 (ix1 c)) x4 k :=
    fun k => lin_apply x0 x1 x2 x3 x4 p k
  have hsum : (∑ k : Fin 128, val_main_call0_v0 (F := Ideal) x0 x1 x2 x3 x4 (idx_main_call0_v1 (idx_main_call0_v2 (idx_main_v32 (ix2 p q))) k))
      = ∑ j : Fin 128, rowLin (fun k => val_main_v22 (F := Ideal) x0 x1 (ix2 p k)) (fun k => x0 (ix2 p k)) x2 (fun c => x3 (ix1 c)) x4 j
          * rowLin (fun k => val_main_v22 (F := Ideal) x0 x1 (ix2 p k)) (fun k => x0 (ix2 p k)) x2 (fun c => x3 (ix1 c)) x4 j :=
    Finset.sum_congr rfl fun k _ => by
      rw [en k, val_main_call0_v0_apply, hl k]
      rfl
  rw [val_main_v34_apply, val_main_v33_apply, val_main_v32_apply, val_main_v31_apply, val_main_v29_apply,
    val_main_call0_v2_apply, val_main_call0_v1_apply, val_main_v30_apply, val_main_cst_4_apply, val_main_call1_v0_apply,
    val_main_call1_cst_apply, val_main_call0_cst_apply, hsum, hl q]
  unfold rowOut
  generalize rowLin (fun k => val_main_v22 (F := Ideal) x0 x1 (ix2 p k)) (fun k => x0 (ix2 p k)) x2 (fun c => x3 (ix1 c)) x4 = f
  show max (Ideal.div (f q) (max (Ideal.sqrt (Ideal.ofBits .f32 0x00000000#32 + ∑ j : Fin 128, f j * f j)) (Ideal.ofBits .f32 0x2B8CBCCC#32)))
      (Ideal.ofBits .f32 0x00000000#32) = _
  rw [Ideal.ofBits_zero_f32, zero_add]

/-- THE LAYER AS A WHOLE ARRAY: the reference's first layer is the layer function of the aggregation term and the
    input. -/
theorem layer_eq :
    val_main_v34 (F := Ideal) x0 x1 x2 x3 x4
      = layerOf (val_main_v22 (F := Ideal) x0 x1) x0 x2 (fun c => x3 (ix1 c)) x4 := by
  funext i
  obtain ⟨p, q, rfl⟩ : ∃ (p : Fin 100000) (q : Fin 128), i = ix2 p q := ⟨i 0, i 1, eq_ix2 i⟩
  rw [layerOf_apply]
  exact layer_apply x0 x1 x2 x3 x4 p q

/-- The second layer's operations are the first layer's, applied to the first layer's output with the second
    layer's weights: the reference's result is the layer of the layer. -/
theorem twice (x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v65 (F := Ideal) x0 x1 x2 x3 x4 x5 x6 x7
      = val_main_v34 (F := Ideal) (val_main_v34 (F := Ideal) x0 x1 x2 x3 x4) x1 x5 x6 x7 := rfl

end Cert.Sage.Ref

end
-- ==== Proof.SageBody.lean ====
/-
  What one grid point of the kernel writes, read at an entry.

  The kernel's body loads a [5000, 128] block of aggregated features, the same block of the layer's input, two
  [128, 128] weight matrices and a [1, 128] bias row, and stores one [5000, 128] block: entry (r, q) of that block is
  the row function `Cert.Sage.rowOut` of row r of the two left blocks. The two pallas_calls run the same body.
-/
import proofs.«123608_j16982300688537_1_alg».proof.Proof.Gen.KernelIdeal.Frame
import proofs.«123608_j16982300688537_1_alg».proof.Proof.SageRow
import Idealize.ShloMosaic.Lib.Pipeline.Value

set_option maxRecDepth 16384

noncomputable section

open scoped BigOperators

namespace Cert.Sage.Kernel

open Cert.KernelIdeal Cert.KernelIdeal.Gen Idealize.ShloMosaic Idealize.ShloMosaic.TcCoe Idealize.ShloMosaic.ValueIdx Cert.Sage

theorem hz : (![0, 0] : Fin 2 → Nat) = fun _ => 0 := funext fun a => by fin_cases a <;> rfl

/-! ## Call 0 -/

section Region0

/-- The body's stored value is the tile function of its five loads (the casts of a shape to itself dropped). -/
theorem pay0_eq (x0 x1 : Vec Ideal S5000x128 .f32) (x2 x4 : Vec Ideal S128x128 .bf16) (x3 : Vec Ideal S1x128 .f32) :
    k0_pay1 (F := Ideal) x0 x1 x2 x4 x3
      = tile dot_S5000x128_S128x128_S5000x128_1_0_0_1_n_n broadcasts_S1x128_S5000x128 reduces_S5000x128_S5000
          shapeCasts_S5000_S5000x1 broadcasts_S5000x1_S5000x128 (.inl rfl) rfl bitsLt_bf16_f32 x0 x1 x2 x4 x3 := by
  unfold k0_pay1
  simp only [shapeCast_self]
  rfl

/-- What the body leaves in the output block, at (r, q): the row function of row r of the two left blocks. -/
theorem out0_apply (x0 x1 : Vec Ideal S5000x128 .f32) (x2 : Vec Ideal S128x128 .bf16) (x3 : Vec Ideal S1x128 .f32)
    (x4 : Vec Ideal S128x128 .bf16) (r : Fin 5000) (q : Fin 128) :
    out0_5 (F := Ideal) x0 x1 x2 x3 x4 (ix2 r q)
      = rowOut (fun k => x0 (ix2 r k)) (fun k => x1 (ix2 r k)) x2 (fun c => x3 (ix2 (0 : Fin 1) c)) x4 q := by
  unfold out0_5
  rw [View.canon_unit_zero hz]
  simp only [View.ld_unit_zero (S := S5000x128) hz, View.ld_unit_zero (S := S128x128) hz, View.ld_unit_zero (S := S1x128) hz]
  rw [pay0_eq]
  exact tile_apply _ _ _ _ _ _ _ _ x0 x1 x2 x4 x3 rfl rfl rfl rfl rfl rfl rfl rfl r q

end Region0

/-! ## Call 1 -/

section Region1

/-- The body's stored value is the tile function of its five loads (the casts of a shape to itself dropped). -/
theorem pay1_eq (x0 x1 : Vec Ideal S5000x128 .f32) (x2 x4 : Vec Ideal S128x128 .bf16) (x3 : Vec Ideal S1x128 .f32) :
    k1_pay1 (F := Ideal) x0 x1 x2 x4 x3
      = tile dot_S5000x128_S128x128_S5000x128_1_0_0_1_n_n broadcasts_S1x128_S5000x128 reduces_S5000x128_S5000
          shapeCasts_S5000_S5000x1 broadcasts_S5000x1_S5000x128 (.inl rfl) rfl bitsLt_bf16_f32 x0 x1 x2 x4 x3 := by
  unfold k1_pay1
  simp only [shapeCast_self]
  rfl

/-- What the body leaves in the output block, at (r, q): the row function of row r of the two left blocks. -/
theorem out1_apply (x0 x1 : Vec Ideal S5000x128 .f32) (x2 : Vec Ideal S128x128 .bf16) (x3 : Vec Ideal S1x128 .f32)
    (x4 : Vec Ideal S128x128 .bf16) (r : Fin 5000) (q : Fin 128) :
    out1_5 (F := Ideal) x0 x1 x2 x3 x4 (ix2 r q)
      = rowOut (fun k => x0 (ix2 r k)) (fun k => x1 (ix2 r k)) x2 (fun c => x3 (ix2 (0 : Fin 1) c)) x4 q := by
  unfold out1_5
  rw [View.canon_unit_zero hz]
  simp only [View.ld_unit_zero (S := S5000x128) hz, View.ld_unit_zero (S := S128x128) hz, View.ld_unit_zero (S := S1x128) hz]
  rw [pay1_eq]
  exact tile_apply _ _ _ _ _ _ _ _ x0 x1 x2 x4 x3 rfl rfl rfl rfl rfl rfl rfl rfl r q

end Region1

end Cert.Sage.Kernel

end
-- ==== Proof.SageBlocks.lean ====
/-
  From blocks to the array: what a pallas_call leaves in its output array.

  The grid has twenty points; point t stages rows 5000 t ... 5000 t + 4999 of the aggregated features and of the
  layer's input, the whole weight matrices and the bias row, and writes rows 5000 t ... 5000 t + 4999 of the output.
  Entry (r, q) of the block point t writes is the row function of rows 5000 t + r of the two row-tiled arrays, which is
  entry (5000 t + r, q) of the layer function of the whole arrays; the twenty blocks tile the 100000 rows; so the
  output array ends as the layer function of the arrays as the call finds them. Both calls have this shape; they are
  stated at any contents V of the core's buffers at the call's entry.
-/
import proofs.«123608_j16982300688537_1_alg».proof.Proof.Gen.KernelIdeal.Frame
import proofs.«123608_j16982300688537_1_alg».proof.Proof.SageRow
import proofs.«123608_j16982300688537_1_alg».proof.Proof.SageBody
import Idealize.ShloMosaic.Lib.Pipeline.Value

set_option maxRecDepth 16384

noncomputable section

open scoped BigOperators

namespace Cert.Sage.Blocks

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

/-! ## Call 0 -/

section Call0

/-- The printed index maps, decided over the twenty grid points: the two row-tiled inputs and the output are at block
    (t, 0), the weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t COMPUTES, entry by entry: the body's result on the point's blocks at block entry j is the layer
    function of the whole arrays at the array entry block t places j at (row 5000 t + the block row, same column). -/
theorem point0 (c : Dev nD) (t : Fin cfg0.N) (j : S5000x128.Idx) :
    out0_5 (F := Ideal) (iblk0 V c 0 t) (iblk0 V c 1 t) (iblk0 V c 2 t) (iblk0 V c 3 t) (iblk0 V c 4 t) j
      = layerOf (V c main_v22) (V c main_arg0) (V c main_v23) (fun q => V c main_v25 (ix2 (0 : Fin 1) q)) (V c main_v24)
          (((cfg0.win 5).blk t).view.emb j) := by
  obtain ⟨r, q, rfl⟩ : ∃ (r : Fin 5000) (q : Fin 128), j = ix2 r q := ⟨j 0, j 1, eq_ix2 j⟩
  obtain ⟨e00, e01, e10, e11, e20, e21, e30, e31, e40, e41, e50, e51⟩ := idx0 t
  have ht : t.val < 20 := by have h : t.val < grid0.N := t.isLt; rw [N_0] at h; exact h
  have hrow : 5000 * t.val + r.val < 100000 := by have := r.isLt; omega
  have hi : ((cfg0.win 5).blk t).view.emb (ix2 r q) = ix2 (⟨5000 * t.val + r.val, hrow⟩ : Fin 100000) q := by
    funext a; apply Fin.ext
    match a with
    | ⟨0, _⟩ => show win0_5.index t (0 : Fin 2) * 5000 + 1 * r.val = 5000 * t.val + r.val; omega
    | ⟨1, _⟩ => show win0_5.index t (1 : Fin 2) * 128 + 1 * q.val = q.val; omega
  rw [hi, layerOf_apply]
  refine (Cert.Sage.Kernel.out0_apply (iblk0 V c 0 t) (iblk0 V c 1 t) (iblk0 V c 2 t) (iblk0 V c 3 t) (iblk0 V c 4 t) r q).trans ?_
  have h0 : ∀ k : Fin 128, iblk0 V c 0 t (ix2 r k) = V c main_v22 (ix2 (⟨5000 * t.val + r.val, hrow⟩ : Fin 100000) k) := fun k => by
    show V c main_v22 (((cfg0.win 0).blk t).view.emb (ix2 r k)) = _
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 128 + 1 * k.val = k.val; omega
  have h1 : ∀ k : Fin 128, iblk0 V c 1 t (ix2 r k) = V c main_arg0 (ix2 (⟨5000 * t.val + r.val, hrow⟩ : Fin 100000) k) := fun k => by
    show V c main_arg0 (((cfg0.win 1).blk t).view.emb (ix2 r k)) = _
    refine congrArg _ (funext fun a => Fin.ext ?_)
    match a with
    | ⟨0, _⟩ => show win0_1.index t (0 : Fin 2) * 5000 + 1 * r.val = 5000 * t.val + r.val; omega
    | ⟨1, _⟩ => show win0_1.index t (1 : Fin 2) * 128 + 1 * k.val = k.val; omega
  have h2 : iblk0 V c 2 t = V c main_v23 := funext fun y => by
    show V c main_v23 (((cfg0.win 2).blk t).view.emb y) = V c main_v23 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : ∀ k : Fin 128, iblk0 V c 3 t (ix2 (0 : Fin 1) k) = V c main_v25 (ix2 (0 : Fin 1) k) := fun k => by
    show V c main_v25 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  have h4 : iblk0 V c 4 t = V c main_v24 := funext fun y => by
    show V c main_v24 (((cfg0.win 4).blk t).view.emb y) = V c main_v24 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  exact rowOut_congr (funext h0) (funext h1) h2 (funext h3) h4 q

/-- WHAT POINT t WRITES BACK is block t of the layer function of the arrays as the call finds them. -/
theorem flushed0 (c : Dev nD) (t : Fin cfg0.N) :
    (dat0 V c).flushed 5 t = ((cfg0.win 5).blk t).view.read (Elt Ideal)
      (layerOf (V c main_v22) (V c main_arg0) (V c main_v23) (fun q => V c main_v25 (ix2 (0 : Fin 1) q)) (V c main_v24)) := by
  show (cfg0.win 5).cut (grid0.coords t) ((dat0 V c).after 5 t) = _
  rw [after0_5]
  funext j
  exact point0 V c t j

/-- An entry of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty blocks of 5000 rows tile the 100000 rows: row n is in the block of point n / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have hlt : (i 0).val / 5000 < grid0.N := by omega
  refine ⟨⟨(i 0).val / 5000, hlt⟩, flush0_5 _, ?_⟩
  rw [mem_blk0]
  obtain ⟨e00, e01, e10, e11, e20, e21, e30, e31, e40, e41, e50, e51⟩ := idx0 ⟨(i 0).val / 5000, hlt⟩
  have e50' : win0_5.index ⟨(i 0).val / 5000, hlt⟩ (0 : Fin 2) = (i 0).val / 5000 := e50
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    omega

/-- THE OUTPUT ARRAY after the call: the layer function of the arrays as the call finds them. -/
theorem final0 (c : Dev nD) :
    (dat0 V c).arrAt 5 cfg0.N
      = layerOf (V c main_v22) (V c main_arg0) (V c main_v23) (fun q => V c main_v25 (ix2 (0 : Fin 1) q)) (V c main_v24) :=
  (dat0 V c).arrAt_eq_of_cover 5 _ (fun t _ => flushed0 V c t) cover0

end Call0

/-! ## Call 1 -/

section Call1

/-- The printed index maps, decided over the twenty grid points: the two row-tiled inputs and the output are at block
    (t, 0), the weights and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t COMPUTES, entry by entry: the body's result on the point's blocks at block entry j is the layer
    function of the whole arrays at the array entry block t places j at (row 5000 t + the block row, same column). -/
theorem point1 (c : Dev nD) (t : Fin cfg1.N) (j : S5000x128.Idx) :
    out1_5 (F := Ideal) (iblk1 V c 0 t) (iblk1 V c 1 t) (iblk1 V c 2 t) (iblk1 V c 3 t) (iblk1 V c 4 t) j
      = layerOf (V c main_v45) (V c main_v26) (V c main_v46) (fun q => V c main_v48 (ix2 (0 : Fin 1) q)) (V c main_v47)
          (((cfg1.win 5).blk t).view.emb j) := by
  obtain ⟨r, q, rfl⟩ : ∃ (r : Fin 5000) (q : Fin 128), j = ix2 r q := ⟨j 0, j 1, eq_ix2 j⟩
  obtain ⟨e00, e01, e10, e11, e20, e21, e30, e31, e40, e41, e50, e51⟩ := idx1 t
  have ht : t.val < 20 := by have h : t.val < grid1.N := t.isLt; rw [N_1] at h; exact h
  have hrow : 5000 * t.val + r.val < 100000 := by have := r.isLt; omega
  have hi : ((cfg1.win 5).blk t).view.emb (ix2 r q) = ix2 (⟨5000 * t.val + r.val, hrow⟩ : Fin 100000) q := by
    funext a; apply Fin.ext
    match a with
    | ⟨0, _⟩ => show win1_5.index t (0 : Fin 2) * 5000 + 1 * r.val = 5000 * t.val + r.val; omega
    | ⟨1, _⟩ => show win1_5.index t (1 : Fin 2) * 128 + 1 * q.val = q.val; omega
  rw [hi, layerOf_apply]
  refine (Cert.Sage.Kernel.out1_apply (iblk1 V c 0 t) (iblk1 V c 1 t) (iblk1 V c 2 t) (iblk1 V c 3 t) (iblk1 V c 4 t) r q).trans ?_
  have h0 : ∀ k : Fin 128, iblk1 V c 0 t (ix2 r k) = V c main_v45 (ix2 (⟨5000 * t.val + r.val, hrow⟩ : Fin 100000) k) := fun k => by
    show V c main_v45 (((cfg1.win 0).blk t).view.emb (ix2 r k)) = _
    refine congrArg _ (funext fun a => Fin.ext ?_)
    match a with
    | ⟨0, _⟩ => show win1_0.index t (0 : Fin 2) * 5000 + 1 * r.val = 5000 * t.val + r.val; omega
    | ⟨1, _⟩ => show win1_0.index t (1 : Fin 2) * 128 + 1 * k.val = k.val; omega
  have h1 : ∀ k : Fin 128, iblk1 V c 1 t (ix2 r k) = V c main_v26 (ix2 (⟨5000 * t.val + r.val, hrow⟩ : Fin 100000) k) := fun k => by
    show V c main_v26 (((cfg1.win 1).blk t).view.emb (ix2 r k)) = _
    refine congrArg _ (funext fun a => Fin.ext ?_)
    match a with
    | ⟨0, _⟩ => show win1_1.index t (0 : Fin 2) * 5000 + 1 * r.val = 5000 * t.val + r.val; omega
    | ⟨1, _⟩ => show win1_1.index t (1 : Fin 2) * 128 + 1 * k.val = k.val; omega
  have h2 : iblk1 V c 2 t = V c main_v46 := funext fun y => by
    show V c main_v46 (((cfg1.win 2).blk t).view.emb y) = V c main_v46 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : ∀ k : Fin 128, iblk1 V c 3 t (ix2 (0 : Fin 1) k) = V c main_v48 (ix2 (0 : Fin 1) k) := fun k => by
    show V c main_v48 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have h4 : iblk1 V c 4 t = V c main_v47 := funext fun y => by
    show V c main_v47 (((cfg1.win 4).blk t).view.emb y) = V c main_v47 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  exact rowOut_congr (funext h0) (funext h1) h2 (funext h3) h4 q

/-- WHAT POINT t WRITES BACK is block t of the layer function of the arrays as the call finds them. -/
theorem flushed1 (c : Dev nD) (t : Fin cfg1.N) :
    (dat1 V c).flushed 5 t = ((cfg1.win 5).blk t).view.read (Elt Ideal)
      (layerOf (V c main_v45) (V c main_v26) (V c main_v46) (fun q => V c main_v48 (ix2 (0 : Fin 1) q)) (V c main_v47)) := by
  show (cfg1.win 5).cut (grid1.coords t) ((dat1 V c).after 5 t) = _
  rw [after1_5]
  funext j
  exact point1 V c t j

/-- An entry of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- The twenty blocks of 5000 rows tile the 100000 rows: row n is in the block of point n / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have hlt : (i 0).val / 5000 < grid1.N := by omega
  refine ⟨⟨(i 0).val / 5000, hlt⟩, flush1_5 _, ?_⟩
  rw [mem_blk1]
  obtain ⟨e00, e01, e10, e11, e20, e21, e30, e31, e40, e41, e50, e51⟩ := idx1 ⟨(i 0).val / 5000, hlt⟩
  have e50' : win1_5.index ⟨(i 0).val / 5000, hlt⟩ (0 : Fin 2) = (i 0).val / 5000 := e50
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

/-- THE OUTPUT ARRAY after the call: the layer function of the arrays as the call finds them. -/
theorem final1 (c : Dev nD) :
    (dat1 V c).arrAt 5 cfg1.N
      = layerOf (V c main_v45) (V c main_v26) (V c main_v46) (fun q => V c main_v48 (ix2 (0 : Fin 1) q)) (V c main_v47) :=
  (dat1 V c).arrAt_eq_of_cover 5 _ (fun t _ => flushed1 V c t) cover1

end Call1

end Cert.Sage.Blocks

end
-- ==== Proof.SageHost.lean ====
/-
  The host operations around the two pallas_calls, read back.

  Before the first call the host gathers the rows x[src], adds them into their destination nodes, counts each node's
  incoming edges and divides (the mean over neighbours), rounds the two weight matrices to bf16 - the identity on the
  extended reals - and views the bias as a row. Between the calls it does the same with the first call's output in
  place of x and the second layer's weights. The reference's own operations up to its first mean aggregation are the
  same operations, so the aggregated features are the reference's aggregation term `val_main_v22` of (the layer's
  input, the edge list): the gather and the two accumulating scatters are never opened.

  Every statement is about `StableHlo.after ops W` for ANY contents W of the core's buffers before the stretch.
-/
import proofs.«123608_j16982300688537_1_alg».proof.Proof.Gen.KernelIdeal.Frame
import proofs.«123608_j16982300688537_1_alg».proof.Proof.Gen.ReferenceIdeal.Read
import Idealize.ShloMosaic.Lib.ValueLayout
import Idealize.ShloMosaic.Lib.StableHlo.Run

set_option maxRecDepth 16384

noncomputable section

namespace Cert.Sage.Host

open Cert.KernelIdeal Cert.KernelIdeal.Gen Idealize.ShloMosaic Idealize.ShloMosaic.TcCoe Idealize.ShloMosaic.ValueIdx Idealize.SL.Sem
open Idealize.ShloMosaic.StableHlo

variable (W : Valuation τ sig (Elt Ideal))

/-! ## The stretch before the first call -/

/-- The source indices: row 0 of the edge list, flattened. -/
theorem src0 : StableHlo.after hostOps0 W (Proc.devRef .tc main_v1)
    = Cert.ReferenceIdeal.Read.val_main_v1 (F := Ideal) (W (Proc.devRef .tc main_arg1)) := by
  after_results_simp
  rfl

/-- The destination indices: row 1 of the edge list, flattened. -/
theorem dst0 : StableHlo.after hostOps0 W (Proc.devRef .tc main_v3)
    = Cert.ReferenceIdeal.Read.val_main_v3 (F := Ideal) (W (Proc.devRef .tc main_arg1)) := by
  after_results_simp
  rfl

/-- The first layer's aggregated features are the reference's aggregation term of (x, edge list). -/
theorem agg0 : StableHlo.after hostOps0 W (Proc.devRef .tc main_v22)
    = Cert.ReferenceIdeal.Read.val_main_v22 (F := Ideal) (W (Proc.devRef .tc main_arg0)) (W (Proc.devRef .tc main_arg1)) := by
  after_results_simp
  rfl

/-- No operation of the stretch writes an argument or is the layer's input. -/
theorem x0 : StableHlo.after hostOps0 W (Proc.devRef .tc main_arg0) = W (Proc.devRef .tc main_arg0) := by
  after_results_simp

/-- The left weights, rounded to bf16: the same numbers. -/
theorem wl0 : StableHlo.after hostOps0 W (Proc.devRef .tc main_v23) = W (Proc.devRef .tc main_arg2) := by
  after_results_simp
  rfl

/-- The right weights, rounded to bf16: the same numbers. -/
theorem wr0 : StableHlo.after hostOps0 W (Proc.devRef .tc main_v24) = W (Proc.devRef .tc main_arg4) := by
  after_results_simp
  rfl

/-- The bias viewed as a [1, 128] row reads, at (0, q), the bias at q. -/
theorem b0 (q : Fin 128) : StableHlo.after hostOps0 W (Proc.devRef .tc main_v25) (ix2 (0 : Fin 1) q)
    = W (Proc.devRef .tc main_arg3) (ix1 q) := by
  after_results_simp
  exact shapeCast_a_1a_apply _ _ (0 : Fin 1) q

/-- The second layer's weights and bias are not touched by the first stretch. -/
theorem keep5 : StableHlo.after hostOps0 W (Proc.devRef .tc main_arg5) = W (Proc.devRef .tc main_arg5) := by
  after_results_simp
theorem keep6 : StableHlo.after hostOps0 W (Proc.devRef .tc main_arg6) = W (Proc.devRef .tc main_arg6) := by
  after_results_simp
theorem keep7 : StableHlo.after hostOps0 W (Proc.devRef .tc main_arg7) = W (Proc.devRef .tc main_arg7) := by
  after_results_simp

/-! ## The stretch between the calls -/

/-- The second layer's aggregated features are the reference's aggregation term of (the first call's output, the edge
    list), the source and destination indices being those the first stretch computed. -/
theorem agg1 (e : (⟨Cert.ReferenceIdeal.S2x1600000, .i32⟩ : BufTy).Contents (Elt Ideal))
    (h1 : W (Proc.devRef .tc main_v1) = Cert.ReferenceIdeal.Read.val_main_v1 (F := Ideal) e)
    (h3 : W (Proc.devRef .tc main_v3) = Cert.ReferenceIdeal.Read.val_main_v3 (F := Ideal) e) :
    StableHlo.after hostOps1 W (Proc.devRef .tc main_v45)
      = Cert.ReferenceIdeal.Read.val_main_v22 (F := Ideal) (W (Proc.devRef .tc main_v26)) e := by
  after_results_simp
  rw [h1, h3]
  rfl

/-- The second call's input is the first call's output, untouched. -/
theorem x1 : StableHlo.after hostOps1 W (Proc.devRef .tc main_v26) = W (Proc.devRef .tc main_v26) := by
  after_results_simp

theorem wl1 : StableHlo.after hostOps1 W (Proc.devRef .tc main_v46) = W (Proc.devRef .tc main_arg5) := by
  after_results_simp
  rfl

theorem wr1 : StableHlo.after hostOps1 W (Proc.devRef .tc main_v47) = W (Proc.devRef .tc main_arg7) := by
  after_results_simp
  rfl

theorem b1 (q : Fin 128) : StableHlo.after hostOps1 W (Proc.devRef .tc main_v48) (ix2 (0 : Fin 1) q)
    = W (Proc.devRef .tc main_arg6) (ix1 q) := by
  after_results_simp
  exact shapeCast_a_1a_apply _ _ (0 : Fin 1) q

end Cert.Sage.Host

end
-- ==== Proof.SageValue.lean ====
/-
  The idealized kernel's result is the reference's.

  Write L (x, e, Wl, b, Wr) for the reference's layer term (`val_main_v34`): the layer function of the mean
  aggregation of x over the edge list e and of x itself. The first pallas_call leaves L (x, e, Wl1, bl1, Wr1) in its
  output array: it finds the aggregated features, x, the rounded weights and the bias row in its five input arrays,
  and its output array ends as the layer function of them. The stretch between the calls aggregates that output over
  the same edge list; the second call finds it, the first output, and the second layer's weights and bias, and leaves
  L (L (x, e, Wl1, bl1, Wr1), e, Wl2, bl2, Wr2), which is the term the reference's run ends with.
-/
import proofs.«123608_j16982300688537_1_alg».proof.Proof.Gen.KernelIdeal.Frame
import proofs.«123608_j16982300688537_1_alg».proof.Proof.Gen.ReferenceIdeal.Read
import proofs.«123608_j16982300688537_1_alg».proof.Proof.SageRow
import proofs.«123608_j16982300688537_1_alg».proof.Proof.SageRef
import proofs.«123608_j16982300688537_1_alg».proof.Proof.SageBlocks
import proofs.«123608_j16982300688537_1_alg».proof.Proof.SageHost

set_option maxRecDepth 16384

noncomputable section

namespace Cert.Sage.Value

open Cert.KernelIdeal Cert.KernelIdeal.Gen Idealize.ShloMosaic Idealize.ShloMosaic.TcCoe Idealize.ShloMosaic.ValueIdx Idealize.SL.Sem Cert.Sage

variable (m : (ℓ : Loc nD τ sig) → Buf (Elt Ideal) ℓ) (ρ : Dev nD → PrngReg)

/-- THE FIRST CALL'S OUTPUT: the reference's first layer of the arguments. -/
theorem first (c : Dev nD) :
    (dat0 (V1 m ρ) c).arrAt 5 cfg0.N
      = Cert.ReferenceIdeal.Read.val_main_v34 (F := Ideal) (W0 m ρ c (Proc.devRef .tc main_arg0)) (W0 m ρ c (Proc.devRef .tc main_arg1))
          (W0 m ρ c (Proc.devRef .tc main_arg2)) (W0 m ρ c (Proc.devRef .tc main_arg3)) (W0 m ρ c (Proc.devRef .tc main_arg4)) := by
  refine (Cert.Sage.Blocks.final0 (V1 m ρ) c).trans ?_
  refine (layerOf_congr (Cert.Sage.Host.agg0 (W0 m ρ c)) (Cert.Sage.Host.x0 (W0 m ρ c)) (Cert.Sage.Host.wl0 (W0 m ρ c))
    (funext fun q => Cert.Sage.Host.b0 (W0 m ρ c) q) (Cert.Sage.Host.wr0 (W0 m ρ c))).trans ?_
  exact (Cert.Sage.Ref.layer_eq _ _ _ _ _).symm

/-- THE SECOND CALL'S OUTPUT: the reference's whole term of the arguments. -/
theorem second (c : Dev nD) :
    (dat1 (V3 m ρ) c).arrAt 5 cfg1.N
      = Cert.ReferenceIdeal.Read.val_main_v65 (F := Ideal) (W0 m ρ c (Proc.devRef .tc main_arg0)) (W0 m ρ c (Proc.devRef .tc main_arg1))
          (W0 m ρ c (Proc.devRef .tc main_arg2)) (W0 m ρ c (Proc.devRef .tc main_arg3)) (W0 m ρ c (Proc.devRef .tc main_arg4))
          (W0 m ρ c (Proc.devRef .tc main_arg5)) (W0 m ρ c (Proc.devRef .tc main_arg6)) (W0 m ρ c (Proc.devRef .tc main_arg7)) := by
  have hsrc : W2 m ρ c (Proc.devRef .tc main_v1)
      = Cert.ReferenceIdeal.Read.val_main_v1 (F := Ideal) (W0 m ρ c (Proc.devRef .tc main_arg1)) :=
    (W2_of_ne m ρ c main_v1 (by decide)).trans (Cert.Sage.Host.src0 (W0 m ρ c))
  have hdst : W2 m ρ c (Proc.devRef .tc main_v3)
      = Cert.ReferenceIdeal.Read.val_main_v3 (F := Ideal) (W0 m ρ c (Proc.devRef .tc main_arg1)) :=
    (W2_of_ne m ρ c main_v3 (by decide)).trans (Cert.Sage.Host.dst0 (W0 m ρ c))
  have hx : W2 m ρ c (Proc.devRef .tc main_v26) = _ := (W2_arr m ρ c 5).trans (first m ρ c)
  have h5 : W2 m ρ c (Proc.devRef .tc main_arg5) = W0 m ρ c (Proc.devRef .tc main_arg5) :=
    (W2_of_ne m ρ c main_arg5 (by decide)).trans (Cert.Sage.Host.keep5 (W0 m ρ c))
  have h6 : W2 m ρ c (Proc.devRef .tc main_arg6) = W0 m ρ c (Proc.devRef .tc main_arg6) :=
    (W2_of_ne m ρ c main_arg6 (by decide)).trans (Cert.Sage.Host.keep6 (W0 m ρ c))
  have h7 : W2 m ρ c (Proc.devRef .tc main_arg7) = W0 m ρ c (Proc.devRef .tc main_arg7) :=
    (W2_of_ne m ρ c main_arg7 (by decide)).trans (Cert.Sage.Host.keep7 (W0 m ρ c))
  refine (Cert.Sage.Blocks.final1 (V3 m ρ) c).trans ?_
  refine (layerOf_congr (Cert.Sage.Host.agg1 (W2 m ρ c) _ hsrc hdst) (Cert.Sage.Host.x1 (W2 m ρ c))
    ((Cert.Sage.Host.wl1 (W2 m ρ c)).trans h5)
    (funext fun q => (Cert.Sage.Host.b1 (W2 m ρ c) q).trans (congrFun h6 (ix1 q)))
    ((Cert.Sage.Host.wr1 (W2 m ρ c)).trans h7)).trans ?_
  rw [hx]
  exact (Cert.Sage.Ref.layer_eq _ _ _ _ _).symm.trans (Cert.Sage.Ref.twice _ _ _ _ _ _ _ _).symm

end Cert.Sage.Value

end
-- ==== Proof.lean ====
/-
  GraphSAGE, two layers, as a Pallas kernel per layer against a jnp reference: the certificate's five claims.

  Each layer takes the mean of the neighbours' features (a row gather, two accumulating scatters and a division, all on
  the host, in both programs), multiplies the aggregated and the node's own features by two weight matrices, adds a
  bias, divides each row by its Euclidean norm (kept away from zero) and rectifies. The kernel does the dense part in a
  pallas_call tiled over 5000-row blocks with the weights rounded to bf16; the reference does it on whole arrays in
  f32. On the extended reals a change of float format is the identity, a matrix product into a zero accumulator is
  the contraction's plain sum and so is the host's dot_general, and a lane sum from zero is the host's row sum from
  zero: the two programs perform the same operations in the same order on the same numbers, so they are equal with
  no law of arithmetic used and no use of the inputs' finiteness.

  The three frames are the generated frame certificates (the reference's is its generated run with the result
  dropped); the idealization rewrote nothing, so `preserves` is trivial; `algebraic` sets the kernel's run with its
  result named (Proof/SageRun.lean) and read as the reference's term of the arguments (Proof/SageValue.lean) beside the
  reference's generated run.
-/
import proofs.«123608_j16982300688537_1_alg».proof.Defs
import proofs.«123608_j16982300688537_1_alg».proof.Proof.Gen.Kernel
import proofs.«123608_j16982300688537_1_alg».proof.Proof.Gen.Kernel.Frame
import proofs.«123608_j16982300688537_1_alg».proof.Proof.Gen.KernelIdeal
import proofs.«123608_j16982300688537_1_alg».proof.Proof.Gen.KernelIdeal.Frame
import proofs.«123608_j16982300688537_1_alg».proof.Proof.Gen.ReferenceIdeal
import proofs.«123608_j16982300688537_1_alg».proof.Proof.Gen.Pre_finite_inputs
import proofs.«123608_j16982300688537_1_alg».proof.Proof.Gen.ReferenceIdeal.Run
import proofs.«123608_j16982300688537_1_alg».proof.Proof.Gen.ReferenceIdeal.Read
import proofs.«123608_j16982300688537_1_alg».proof.Proof.SageRun
import proofs.«123608_j16982300688537_1_alg».proof.Proof.SageValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel ends with its result at the reference's term of the
    arguments (the second call's output, read back through both calls), and the reference's run ends with its result
    at that term of its own arguments, which are the kernel's. -/
theorem algebraic : Cert.algebraic_KernelIdeal_ReferenceIdeal := by
  intro m ρ m' ρ' _ hagree
  refine ⟨_, (θ_run Cert.KernelIdeal.defs _ _).mono
    (fun r h c => ⟨(h c).1.trans (Cert.Sage.Value.second m ρ c), (h c).2⟩) (Cert.Sage.Run.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
